-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 58
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S100000, .f32⟩
  | .local _ .vmem, ⟨6, _⟩ => ⟨S100000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S100000_S100000_0 : ∀ a, (![0] : Fin 1 → Nat) a + S100000.size a ≤ S100000.size a
  h_S100000 : 0 < S100000.numel
  shapeCasts_S100000_S100000 : S100000.ShapeCasts S100000
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S100000.size a ≤ S100000.size a
  hwx1_0 : ∀ i : grid1.Coords, EltTy.bits .f32 = 32 ∨ (Rect.block (s := S100000) S100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100000.size a ≤ S100000.size a
  hwx1_1 : ∀ i : grid1.Coords, EltTy.bits .f32 = 32 ∨ (Rect.block (s := S100000) S100000.size (cc1_transform_1 i) (hinb1_1 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S100000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S100000.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Tail.lean ====
/-
  The graph convolution's host side, as functions of the values the two TensorCore regions produce.

  The edge list `ei` (two rows of E = 1600000 node numbers: sources, then targets) is extended by one self-loop per
  node: `edgeSrc ei` and `edgeDst ei` are the E + N = 1700000 sources and targets. Every edge weighs one
  (`unitWeights`); a node's degree is the sum of the weights of the edges that end in it (`degree`, a scatter-add into
  zeros). With `dis` the degrees' inverse square roots and `h` the linearly transformed node features, the output row of
  node v is the sum over the edges (u, v) of dis(u)·1·dis(v) · h(u,·), plus the bias (`aggregate`: two gathers of `dis`,
  a row gather of `h`, a scatter-add of the weighted rows by target, the bias added to every row).

  The output depends on the node features and the weight matrix only through `h`, and on the degrees only through
  `dis`: two computations that agree on the linear transform (`linear`: row by column, summed over the 128 shared
  coordinates) and on the normalisation (`normalise`: d ↦ d^(-1/2) where d > 0, zero elsewhere) agree on the output,
  whatever the edge list holds.
-/
import proofs.«179227_j61830349193418_1_alg».proof.Proof.Gen.KernelIdeal
import Idealize.ShloMosaic.PureOps.Ideal
import Idealize.ShloMosaic.Lib.ValueIdx

noncomputable section

namespace Cert.KernelIdeal.Glue

open Cert.KernelIdeal Cert.KernelIdeal.Gen
open Idealize.ShloMosaic Idealize.ShloMosaic.TcCoe Idealize.SL.Sem

variable {F : FTy → Type} [FloatOps F]

/-- The sources of the edges, then every node once (the self-loops' sources). -/
def edgeSrc (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the edges, then every node once (the self-loops' targets). -/
def edgeDst (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- Every edge, self-loops included, weighs one. -/
def unitWeights : (⟨S1700000, .f32⟩ : BufTy).Contents (Elt F) :=
  broadcastInDim S1700000 ![] bcast_S_S1700000 (constant (F := F) S_ .f32 0x3F800000#32)

/-- A node's degree: the weights of the edges ending in it, summed from zero. -/
def degree (dst : (⟨S1700000, .i32⟩ : BufTy).Contents (Elt F)) (ones : (⟨S1700000, .f32⟩ : BufTy).Contents (Elt F)) :
    (⟨S100000, .f32⟩ : BufTy).Contents (Elt F) :=
  Host.scatterAdd scatter_S100000_S1700000x1_S1700000_n_0_0_1 (broadcastInDim S100000 ![] bcast_S_S100000 (constant (F := F) S_ .f32 0x00000000#32)) (broadcastInDim S1700000x1 ![0] bcast_S1700000_S1700000x1_0 dst) ones

/-- The symmetric normalisation's factor per node: the degree's inverse square root where the degree is positive, zero
    elsewhere — as the host spells it (a comparison with zeros, the host's inverse square root, a select against zeros). -/
def normalise (deg : (⟨S100000, .f32⟩ : BufTy).Contents (Elt F)) : (⟨S100000, .f32⟩ : BufTy).Contents (Elt F) :=
  select (cmpf (F := F) .ogt deg (broadcastInDim S100000 ![] bcast_S_S100000 (constant S_ .f32 0x00000000#32))) (Host.rsqrt deg) (broadcastInDim S100000 ![] bcast_S_S100000 (id (constant S_ .f32 0x00000000#32)))

/-- The aggregation: per edge the source's transformed row weighted by dis(source)·weight·dis(target), summed into the
    target's row from zero, and the bias added to every row. -/
def aggregate (h : (⟨S100000x128, .f32⟩ : BufTy).Contents (Elt F)) (dis : (⟨S100000, .f32⟩ : BufTy).Contents (Elt F))
    (src dst : (⟨S1700000, .i32⟩ : BufTy).Contents (Elt F)) (ones : (⟨S1700000, .f32⟩ : BufTy).Contents (Elt F))
    (bias : (⟨S128, .f32⟩ : BufTy).Contents (Elt F)) : (⟨S100000x128, .f32⟩ : BufTy).Contents (Elt F) :=
  addf (Host.scatterAdd scatter_S100000x128_S1700000x1_S1700000x128_1_0_0_1 (broadcastInDim S100000x128 ![] bcast_S_S100000x128 (constant (F := F) S_ .f32 0x00000000#32)) (broadcastInDim S1700000x1 ![0] bcast_S1700000_S1700000x1_0 dst) (mulf (Host.gather gather_S100000x128_S1700000x1_S1700000x128_1_0_n_n_0_1_1128 h (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src))) (broadcastInDim S1700000x128 ![0, 1] bcast_S1700000x1_S1700000x128_0_1 (broadcastInDim S1700000x1 ![0] bcast_S1700000_S1700000x1_0 (mulf (mulf (Host.gather gather_S100000_S1700000x1_S1700000_n_0_n_n_0_1_1 dis (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src))) ones) (Host.gather gather_S100000_S1700000x1_S1700000_n_0_n_n_0_1_1 dis (broadcastInDim S1700000x1 ![0] bcast_S1700000_S1700000x1_0 (select (cmpi .slt dst (broadcastInDim S1700000 ![] bcast_S_S1700000 (constantI S_ 32 0#32))) (addi dst (broadcastInDim S1700000 ![] bcast_S_S1700000 (constantI S_ 32 100000#32))) dst)))))))) (broadcastInDim S100000x128 ![0, 1] bcast_S1x128_S100000x128_0_1 (broadcastInDim S1x128 ![1] bcast_S128_S1x128_1 bias))

/-- The linear transform at the ideal values: entry (a, c) is the sum over the 128 shared coordinates k of x(a, k)·w(k, c). -/
def linear (x : FVec Ideal S100000x128 .f32) (w : FVec Ideal S128x128 .f32) : FVec Ideal S100000x128 .f32 :=
  fun i => ∑ k : Fin 128, x (ValueIdx.ix2 (i 0) k) * w (ValueIdx.ix2 k (i 1))

end Cert.KernelIdeal.Glue

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«179227_j61830349193418_1_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.RefValue.lean ====
/-
  The reference's result as the same aggregation.

  The reference's composed term is `aggregate` of: the host's `dot_general` of the features by the weights; the
  normalisation of the degrees as the host spells it; the edge sources and targets, the unit weights and the bias. Both
  programs print the same shapes, dimension records and side conditions under their own names, so the reference's term
  and the kernel-side definitions are one term. The host's `dot_general`, contracting the features' columns against the
  weights' rows, is at the ideal values the function `linear`: entry (a, c) is the sum over k of x(a, k)·w(k, c).
-/
import proofs.«179227_j61830349193418_1_alg».proof.Proof.RefRunPatched
import proofs.«179227_j61830349193418_1_alg».proof.Proof.Tail
import proofs.«179227_j61830349193418_1_alg».proof.Proof.LibRowsCols

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx
open Cert.KernelIdeal.Glue

variable {F : FTy → Type} [FloatOps F]

/-- The reference's result term is the aggregation of its own linear transform and normalisation over the edge data. -/
theorem res_eq (m : (ℓ : Loc nD τ sig) → Buf (Elt F) ℓ) (c : Dev nD) :
    Cert.ReferenceIdeal.ValueP.res_main_v47 m c
      = aggregate (F := F)
          (Host.dotGeneral dot_S100000x128_S128x128_S100000x128_1_0_0_1_n_n none (m ((c.tc : Thread nD τ).loc main_arg0)) (m ((c.tc : Thread nD τ).loc main_arg2)))
          (normalise (F := F) (degree (F := F) (edgeDst (F := F) (m ((c.tc : Thread nD τ).loc main_arg1))) (unitWeights (F := F))))
          (edgeSrc (F := F) (m ((c.tc : Thread nD τ).loc main_arg1))) (edgeDst (F := F) (m ((c.tc : Thread nD τ).loc main_arg1)))
          (unitWeights (F := F)) (m ((c.tc : Thread nD τ).loc main_arg3)) := by
  unfold Cert.ReferenceIdeal.ValueP.res_main_v47
  rfl

/-- In the host's product the left operand's row is the output's row. -/
theorem lhs_row (j : S100000x128.Idx) (q : dot_S100000x128_S128x128_S100000x128_1_0_0_1_n_n.contr.Idx) : (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

/-- In the host's product the right operand's column is the output's column. -/
theorem rhs_col (j : S100000x128.Idx) (q : dot_S100000x128_S128x128_S100000x128_1_0_0_1_n_n.contr.Idx) : (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's `dot_general` of the features by the weights is `linear`: row by column, summed over the 128 shared
    coordinates. -/
theorem dot_eq_linear (x : FVec Ideal S100000x128 .f32) (w : FVec Ideal S128x128 .f32) :
    Host.dotGeneral (F := Ideal) dot_S100000x128_S128x128_S100000x128_1_0_0_1_n_n none x w = linear x w := by
  funext i
  obtain ⟨a, cc, rfl⟩ : ∃ (a : Fin 100000) (cc : Fin 128), i = ix2 a cc := ⟨i 0, i 1, eq_ix2 i⟩
  simp only [Host.dotGeneral]
  exact RowsCols.dotGeneral_apply dot_S100000x128_S128x128_S100000x128_1_0_0_1_n_n rfl rfl rfl rfl lhs_row rhs_col none _ x w a cc

end Cert.ReferenceIdeal.RefValue

end
-- ==== Proof.KernelRun.lean ====
/-
  The idealized kernel's run, with the final memory read at every buffer that outlives the regions.

  @main is four segments: the row-blocked matrix product (a region), the host operations that build the edge lists and
  the degree vector, the elementwise inverse square root of the degrees (a region), and the host operations that gather,
  weigh and scatter-add the rows and add the bias. The contents of the TensorCore's buffers at the four segment
  boundaries are a fold from the launch memory, and the last of them, after the second host stretch, is what every
  terminating execution leaves in memory: the result array is that fold read at the result's buffer, and each argument
  array reads back to its launch contents.
-/
import proofs.«179227_j61830349193418_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final memory every buffer that is not a
    region's scratch holds the contents of the last segment boundary. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run, read at the result and at the arguments: the result array ends at the last boundary's contents of its buffer,
    and every argument array as launched. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
    (run_boundary m ρ)

end Cert.KernelIdeal.Whole

end
-- ==== Proof.KernelFold.lean ====
/-
  The result array of the idealized kernel, read back through @main.

  After the last host stretch the result buffer holds `aggregate` of six values found at the previous boundary: the
  linearly transformed features, the normalisation factors, the edge sources and targets, the unit weights and the bias.
  Going back through the segments: the normalisation factors are what the second region leaves in its output array; the
  second region and the first host stretch leave the first region's output array (the transformed features) alone; the
  edge sources and targets, the unit weights and the degrees (the second region's input array) are the first host
  stretch's stages of the edge list; and no segment writes the edge list or the bias, which are still as launched.
-/
import proofs.«179227_j61830349193418_1_alg».proof.Proof.Gen.KernelIdeal.Frame
import proofs.«179227_j61830349193418_1_alg».proof.Proof.Tail

set_option maxRecDepth 16384

noncomputable section

namespace Cert.KernelIdeal.Fold

open Cert.KernelIdeal Cert.KernelIdeal.Gen Cert.KernelIdeal.Glue
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The second host stretch -/

/-- The result buffer after the second host stretch, from ANY contents `X` before it: the aggregation of what `X`
    holds in the six buffers the stretch reads from outside itself. -/
theorem tail_of (X : Valuation τ sig (Elt F)) :
    StableHlo.after hostOps2 X (Proc.devRef .tc main_v44)
      = aggregate (F := F) (X (Proc.devRef .tc main_v0)) (X (Proc.devRef .tc main_v12)) (X (Proc.devRef .tc main_v4))
          (X (Proc.devRef .tc main_v7)) (X (Proc.devRef .tc main_v8)) (X (Proc.devRef .tc main_arg3)) := by
  after_results_simp
  rfl

/-! ## The first host stretch -/

/-- The edge sources after the first host stretch. -/
theorem src_of (X : Valuation τ sig (Elt F)) :
    StableHlo.after hostOps1 X (Proc.devRef .tc main_v4) = edgeSrc (F := F) (X (Proc.devRef .tc main_arg1)) := by
  after_results
  rfl

/-- The edge targets after the first host stretch. -/
theorem dst_of (X : Valuation τ sig (Elt F)) :
    StableHlo.after hostOps1 X (Proc.devRef .tc main_v7) = edgeDst (F := F) (X (Proc.devRef .tc main_arg1)) := by
  after_results
  rfl

/-- The unit weights after the first host stretch. -/
theorem ones_of (X : Valuation τ sig (Elt F)) :
    StableHlo.after hostOps1 X (Proc.devRef .tc main_v8) = unitWeights (F := F) := by
  after_results
  rfl

/-- The degrees after the first host stretch. -/
theorem deg_of (X : Valuation τ sig (Elt F)) :
    StableHlo.after hostOps1 X (Proc.devRef .tc main_v11)
      = degree (F := F) (edgeDst (F := F) (X (Proc.devRef .tc main_arg1))) (unitWeights (F := F)) := by
  after_results
  rfl

/-- The first host stretch does not write the transformed features. -/
theorem h_kept (X : Valuation τ sig (Elt F)) :
    StableHlo.after hostOps1 X (Proc.devRef .tc main_v0) = X (Proc.devRef .tc main_v0) := by
  after_results

/-- The first host stretch does not write the bias. -/
theorem bias_kept (X : Valuation τ sig (Elt F)) :
    StableHlo.after hostOps1 X (Proc.devRef .tc main_arg3) = X (Proc.devRef .tc main_arg3) := by
  after_results

end Cert.KernelIdeal.Fold

end
-- ==== Proof.RegionLinear.lean ====
/-
  The first region: the linear transform, 5000 rows at a time.

  The grid has 20 points. At point t the body loads rows 5000·t … 5000·t + 4999 of the node features (a 5000 × 128 block)
  and the whole 128 × 128 weight matrix, multiplies them on the matrix unit into a zero accumulator, and stores the
  5000 × 128 product, which the pipeline writes back to the same rows of the output array. At the ideal values rounding
  the operands to bf16 changes nothing and the product's entry (a, c) is the sum over the shared coordinate k of
  block(a, k) · w(k, c); block(a, k) is x(5000·t + a, k), so what point t writes back is rows 5000·t … of the function
  `linear x w`, and the 20 row blocks cover the array: row r lies in the block of point r / 5000.
-/
import proofs.«179227_j61830349193418_1_alg».proof.Proof.Gen.KernelIdeal.Frame
import proofs.«179227_j61830349193418_1_alg».proof.Proof.Tail
import proofs.«179227_j61830349193418_1_alg».proof.Proof.LibRowsCols
import Idealize.ShloMosaic.Lib.Pipeline.Value
import Idealize.ShloMosaic.Lib.ValueIdx
import Idealize.ShloMosaic.Lib.Tactic

set_option maxRecDepth 16384

noncomputable section

namespace Cert.KernelIdeal.Linear

open Cert.KernelIdeal Cert.KernelIdeal.Gen Cert.KernelIdeal.Glue
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The block product at a row and a column -/

/-- In the block product the left operand's row is the output's row. -/
theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- In the block product the right operand's column is the output's column. -/
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at row `a`, column `cc` of the block: the sum over the 128 shared coordinates of the loaded
    feature block at (a, k) times the loaded weights at (k, cc). Rounding to bf16 is the identity on extended reals. -/
theorem pay_apply (x0 : Vec Ideal S5000x128 .f32) (x1 : Vec Ideal S128x128 .f32) (a : Fin 5000) (cc : Fin 128) :
    k0_pay1 (F := Ideal) x0 x1 (ix2 a cc) = ∑ k : Fin 128, x0 (ix2 a k) * x1 (ix2 k cc) := by
  unfold k0_pay1
  exact RowsCols.matmul_zero_apply dot_S5000x128_S128x128_S5000x128_1_0_0_1_n_n rfl rfl rfl rfl lhs_row rhs_col none
    (truncf .bf16 x0 bitsLt_bf16_f32) (truncf .bf16 x1 bitsLt_bf16_f32) a cc

/-! ## The windows' blocks at a point -/

/-- The printed index maps over the grid: the features' and the output's block index is (t, 0), the weights' (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` holds rows 5000·t … of the feature array: its entry `y` is the array's entry
    at row 5000·t + y₀, column y₁. -/
theorem iblk_rows (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → EReal) k := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The weight window's block is the whole weight matrix at every point. -/
theorem iblk_weights (c : Dev nD) (t : Fin cfg0.N) : iblk0 V c 1 t = V c main_arg2 := by
  obtain ⟨-, -, e2, e3, -⟩ := idx_facts t
  unfold iblk0
  have hz' : (fun a => win0_1.index t a * main_arg2.ty.shape.size a) = fun _ => 0 := funext fun a => by
    match a with
    | ⟨0, _⟩ => show win0_1.index t 0 * 128 = 0; rw [e2]
    | ⟨1, _⟩ => show win0_1.index t 1 * 128 = 0; rw [e3]
  exact Memref.read_access_unit_zero (Elt Ideal) main_arg2 hz' (fun a => by rw [congrFun hz' a]; simp) (V c main_arg2)

/-! ## From the blocks to the array -/

/-- What point `t` writes back is rows 5000·t … of `linear` of the two argument arrays as the region finds them. -/
theorem flushed_eq (c : Dev nD) (t : Fin cfg0.N) (hf : (cfg0.win 2).flush t = true) :
    (dat0 V c).flushed 2 t = ((cfg0.win 2).blk t).view.read (Elt Ideal) (linear (V c main_arg0) (V c main_arg2)) := by
  show (cfg0.win 2).cut (grid0.coords t) ((dat0 V c).after 2 t) = _
  rw [after0_2, iblk_weights]
  unfold out0_2
  rw [View.canon_unit_zero hz]
  simp only [View.ld_unit_zero (S := S5000x128) hz, View.ld_unit_zero (S := S128x128) hz]
  obtain ⟨-, -, -, -, e4, e5⟩ := idx_facts t
  funext y
  obtain ⟨a, cc, rfl⟩ : ∃ (a : Fin 5000) (cc : Fin 128), y = ix2 a cc := ⟨y 0, y 1, eq_ix2 y⟩
  rw [View.read_apply]
  refine (pay_apply (iblk0 V c 0 t) (V c main_arg2) a cc).trans ?_
  show _ = linear (V c main_arg0) (V c main_arg2) (((cfg0.win 2).blk t).view.emb (ix2 a cc))
  unfold linear
  have hr : ((((cfg0.win 2).blk t).view.emb (ix2 a cc)) 0).val = 5000 * t.val + a.val := by
    show win0_2.index t 0 * 5000 + 1 * a.val = _; rw [e4]; omega
  have hc : ((((cfg0.win 2).blk t).view.emb (ix2 a cc)) 1).val = cc.val := by
    show win0_2.index t 1 * 128 + 1 * cc.val = _; rw [e5]; omega
  refine Finset.sum_congr rfl fun k _ => ?_
  refine congrArg₂ (· * ·) ?_ ?_
  · exact iblk_rows V c t (ix2 a k) _ hr rfl
  · refine congrArg (V c main_arg2) ?_
    funext d
    apply Fin.ext
    match d with
    | ⟨0, _⟩ => rfl
    | ⟨1, _⟩ => exact hc.symm

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every row of the output array lies in the block of the point its number divided by 5000 names. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  obtain ⟨-, -, -, -, e4, e5⟩ := idx_facts t
  refine ⟨t, flush0_2 t, ?_⟩
  rw [mem_blk]
  intro a
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- The output array after the region: the linear transform of the feature array by the weight array, as the region
    found them. -/
theorem final (c : Dev nD) : (dat0 V c).arrAt 2 cfg0.N = linear (V c main_arg0) (V c main_arg2) :=
  (dat0 V c).arrAt_eq_of_cover 2 (linear (V c main_arg0) (V c main_arg2)) (flushed_eq V c) cover

end Cert.KernelIdeal.Linear

end
-- ==== Proof.RegionInvSqrt.lean ====
/-
  The second region: the degrees' inverse square roots.

  Its grid is one point and both windows' blocks are whole arrays, so the one body call loads the whole degree vector and
  stores, through the whole output rectangle, d ↦ d^(-1/2) where d > 0 and zero elsewhere; the write-back of that point
  covers the output array. At the ideal values the TensorCore's inverse square root and the host's are one function of
  the extended reals, the splat of the zero scalar is the broadcast of the zero constant, and a shape cast between equal
  shapes is the identity: the array the region leaves is `normalise` of the array it found.
-/
import proofs.«179227_j61830349193418_1_alg».proof.Proof.Gen.KernelIdeal.Frame
import proofs.«179227_j61830349193418_1_alg».proof.Proof.Tail
import Idealize.ShloMosaic.Lib.Pipeline.Value
import Idealize.ShloMosaic.Lib.Tactic

set_option maxRecDepth 16384

noncomputable section

namespace Cert.KernelIdeal.InvSqrt

open Cert.KernelIdeal Cert.KernelIdeal.Gen Cert.KernelIdeal.Glue
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0] : Fin 1 → Nat) = fun _ => 0 := funext fun a => by fin_cases a; rfl

/-- The body's stored value is the host's spelling of the normalisation, element by element: the same comparison with
    zero, the same inverse square root of an extended real, the same zero. -/
theorem pay_eq (x : Vec Ideal S100000 .f32) : k1_pay1 (F := Ideal) x = normalise (F := Ideal) x := by
  unfold k1_pay1 normalise
  dsimp only
  rw [shapeCast_self]
  funext i
  rfl

/-- The input window's one block is the whole degree vector. -/
theorem iblk_whole (c : Dev nD) (t : Fin cfg1.N) : iblk1 V c 0 t = V c main_v11 := by
  obtain rfl := fin_N1 t
  unfold iblk1
  have hz' : (fun a => win1_0.index t1_0 a * main_v11.ty.shape.size a) = fun _ => 0 := funext fun a => by fin_cases a; decide
  exact Memref.read_access_unit_zero (Elt Ideal) main_v11 hz' (fun a => by rw [congrFun hz' a]; simp) (V c main_v11)

/-- What the one point writes back is the whole normalised vector, read through the output's whole-array block. -/
theorem flushed_eq (c : Dev nD) (t : Fin cfg1.N) (hf : (cfg1.win 1).flush t = true) :
    (dat1 V c).flushed 1 t = ((cfg1.win 1).blk t).view.read (Elt Ideal) (normalise (F := Ideal) (V c main_v11)) := by
  show (cfg1.win 1).cut (grid1.coords t) ((dat1 V c).after 1 t) = _
  rw [after1_1, iblk_whole]
  obtain rfl := fin_N1 t
  unfold out1_1
  rw [View.canon_unit_zero hz]
  simp only [View.ld_unit_zero (S := S100000) hz]
  rw [pay_eq]
  have hz' : (fun a => win1_1.index t1_0 a * main_v12.ty.shape.size a) = fun _ => 0 := funext fun a => by fin_cases a; decide
  exact (Memref.read_access_unit_zero (Elt Ideal) main_v12 hz' (fun a => by rw [congrFun hz' a]; simp) _).symm

/-- The output array after the region: the normalisation of the array the region found in its input window. -/
theorem final (c : Dev nD) : (dat1 V c).arrAt 1 cfg1.N = normalise (F := Ideal) (V c main_v11) :=
  (dat1 V c).arrAt_eq_of_cover 1 (normalise (F := Ideal) (V c main_v11)) (flushed_eq V c) fun i =>
    ⟨t1_0, flush1_1 t1_0, by
      show i ∈ ((View.whole main_v12).slice (win1_1.rect t1_0)).set
      rw [View.set_slice_whole, Rect.mem_set_unit]
      intro a
      have h0 : (i 0 : Nat) < 100000 := (i 0).isLt
      match a with
      | ⟨0, _⟩ =>
        show win1_1.index t1_0 0 * win1_1.size 0 ≤ (i 0 : Nat) ∧ (i 0 : Nat) < win1_1.index t1_0 0 * win1_1.size 0 + win1_1.xsize (grid1.coords t1_0) 0
        rw [show win1_1.index t1_0 0 * win1_1.size 0 = 0 from by decide +kernel, show win1_1.xsize (grid1.coords t1_0) 0 = 100000 from by decide +kernel]
        omega⟩

end Cert.KernelIdeal.InvSqrt

end
-- ==== Proof.KernelValue.lean ====
/-
  The idealized kernel's result as one function of the argument arrays.

  The result buffer after @main is the aggregation of six values (the fold through the second host stretch). Each is read
  back to the launch memory: the normalisation factors are the second region's output, the normalisation of the degrees
  the first host stretch computed from the edge list; the transformed features are the first region's output, the linear
  transform of the feature array by the weight array, which neither the first host stretch nor the second region writes;
  the edge sources and targets and the unit weights are the first host stretch's stages of the edge list; the edge list
  and the bias are written by nothing.
-/
import proofs.«179227_j61830349193418_1_alg».proof.Proof.KernelRun
import proofs.«179227_j61830349193418_1_alg».proof.Proof.KernelFold
import proofs.«179227_j61830349193418_1_alg».proof.Proof.RegionLinear
import proofs.«179227_j61830349193418_1_alg».proof.Proof.RegionInvSqrt

set_option maxRecDepth 16384

noncomputable section

namespace Cert.KernelIdeal.Whole

open Cert.KernelIdeal Cert.KernelIdeal.Gen Cert.KernelIdeal.Glue
open Idealize.ShloMosaic Idealize.ShloMosaic.TcCoe Idealize.SL.Sem Idealize.ShloMosaic.StableHlo

variable (m : (ℓ : Loc nD τ sig) → Buf (Elt Ideal) ℓ) (ρ : Dev nD → PrngReg)

/-- The graph convolution of the argument arrays: the aggregation, over the edge list with self-loops, of the linearly
    transformed features weighted by the symmetric normalisation, plus the bias. -/
def result (c : Dev nD) : Buf (Elt Ideal) ((c.tc : Thread nD τ).loc main_v44) :=
  aggregate (F := Ideal)
    (linear (m ((c.tc : Thread nD τ).loc main_arg0)) (m ((c.tc : Thread nD τ).loc main_arg2)))
    (normalise (F := Ideal) (degree (F := Ideal) (edgeDst (F := Ideal) (m ((c.tc : Thread nD τ).loc main_arg1))) (unitWeights (F := Ideal))))
    (edgeSrc (F := Ideal) (m ((c.tc : Thread nD τ).loc main_arg1))) (edgeDst (F := Ideal) (m ((c.tc : Thread nD τ).loc main_arg1)))
    (unitWeights (F := Ideal)) (m ((c.tc : Thread nD τ).loc main_arg3))

/-- The edge list is as launched when the first host stretch reads it: the first region does not write it. -/
theorem edges_at_W1 (c : Dev nD) : W1 m ρ c (Proc.devRef .tc main_arg1) = m ((c.tc : Thread nD τ).loc main_arg1) :=
  W1_of_ne m ρ c main_arg1 (by decide)

/-- The transformed features at the last host stretch: the first region's output array, kept by the first host stretch
    and by the second region, is the linear transform of the feature array by the weight array as launched. -/
theorem h_at_W3 (c : Dev nD) : W3 m ρ c (Proc.devRef .tc main_v0)
    = linear (m ((c.tc : Thread nD τ).loc main_arg0)) (m ((c.tc : Thread nD τ).loc main_arg2)) :=
  calc W3 m ρ c (Proc.devRef .tc main_v0)
    _ = W2 m ρ c (Proc.devRef .tc main_v0) := W3_of_ne m ρ c main_v0 (by decide)
    _ = W1 m ρ c (Proc.devRef .tc main_v0) := Fold.h_kept (W1 m ρ c)
    _ = (dat0 (V0 m ρ) c).arrAt 2 cfg0.N := W1_arr m ρ c 2
    _ = linear (V0 m ρ c main_arg0) (V0 m ρ c main_arg2) := Linear.final (V0 m ρ) c
    _ = linear (m ((c.tc : Thread nD τ).loc main_arg0)) (m ((c.tc : Thread nD τ).loc main_arg2)) := rfl

/-- The degrees the second region finds in its input array: the first host stretch's scatter-add over the edge targets. -/
theorem deg_at_V2 (c : Dev nD) : V2 m ρ c main_v11
    = degree (F := Ideal) (edgeDst (F := Ideal) (m ((c.tc : Thread nD τ).loc main_arg1))) (unitWeights (F := Ideal)) :=
  (Fold.deg_of (W1 m ρ c)).trans (by rw [edges_at_W1])

/-- The normalisation factors at the last host stretch: the second region's output array. -/
theorem dis_at_W3 (c : Dev nD) : W3 m ρ c (Proc.devRef .tc main_v12)
    = normalise (F := Ideal) (degree (F := Ideal) (edgeDst (F := Ideal) (m ((c.tc : Thread nD τ).loc main_arg1))) (unitWeights (F := Ideal))) :=
  calc W3 m ρ c (Proc.devRef .tc main_v12)
    _ = (dat1 (V2 m ρ) c).arrAt 1 cfg1.N := W3_arr m ρ c 1
    _ = normalise (F := Ideal) (V2 m ρ c main_v11) := InvSqrt.final (V2 m ρ) c
    _ = _ := by rw [deg_at_V2]

/-- The edge sources at the last host stretch. -/
theorem src_at_W3 (c : Dev nD) : W3 m ρ c (Proc.devRef .tc main_v4) = edgeSrc (F := Ideal) (m ((c.tc : Thread nD τ).loc main_arg1)) :=
  (W3_of_ne m ρ c main_v4 (by decide)).trans ((Fold.src_of (W1 m ρ c)).trans (by rw [edges_at_W1]))

/-- The edge targets at the last host stretch. -/
theorem dst_at_W3 (c : Dev nD) : W3 m ρ c (Proc.devRef .tc main_v7) = edgeDst (F := Ideal) (m ((c.tc : Thread nD τ).loc main_arg1)) :=
  (W3_of_ne m ρ c main_v7 (by decide)).trans ((Fold.dst_of (W1 m ρ c)).trans (by rw [edges_at_W1]))

/-- The unit weights at the last host stretch. -/
theorem ones_at_W3 (c : Dev nD) : W3 m ρ c (Proc.devRef .tc main_v8) = unitWeights (F := Ideal) :=
  (W3_of_ne m ρ c main_v8 (by decide)).trans (Fold.ones_of (W1 m ρ c))

/-- The bias at the last host stretch: as launched. -/
theorem bias_at_W3 (c : Dev nD) : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := Fold.bias_kept (W1 m ρ c)
    _ = W0 m ρ c (Proc.devRef .tc main_arg3) := W1_of_ne m ρ c main_arg3 (by decide)
    _ = m ((c.tc : Thread nD τ).loc main_arg3) := rfl

/-- The result buffer after @main holds the graph convolution of the argument arrays. -/
theorem W4_eq (c : Dev nD) : W4 m ρ c (Proc.devRef .tc main_v44) = result m c := by
  show StableHlo.after hostOps2 (W3 m ρ c) (Proc.devRef .tc main_v44) = _
  rw [Fold.tail_of, h_at_W3, dis_at_W3, src_at_W3, dst_at_W3, ones_at_W3, bias_at_W3]
  rfl

/-- Every weakly fair execution of the idealized kernel terminates, nothing faulting, with the result array at the graph
    convolution of the argument arrays and the argument arrays unchanged. -/
theorem run : θ_run defs (onTc (τ := τ) (main (F := Ideal))) ⟨m, fun _ => 0, ρ⟩ (fun r => ∀ c : Dev nD,
      r.2.mem ((c.tc : Thread nD τ).loc main_v44) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (W4_eq m ρ c), (h c).2⟩) (run_result m ρ)

end Cert.KernelIdeal.Whole

end
-- ==== Proof.lean ====
/- The proof of `Cert.Claim` (proofs.«179227_j61830349193418_1_alg».proof.Defs): a graph convolution layer, out = Â (x·W) + bias with Â the
   adjacency with self-loops normalised symmetrically by the degrees' inverse square roots.

   The kernel computes h = x·W in a region, 5000 rows at a time on the matrix unit, and deg^(-1/2) (zero where the degree
   is not positive) in a second region over the whole degree vector; the reference computes both on the host. Everything
   else — the edge list with self-loops, the degrees, the per-edge weights, the gather of h's rows, the scatter-add by
   target, the bias — is the same host computation in both. At the ideal values a block of the matrix product into a zero
   accumulator and the host's `dot_general` are both the sum over the 128 shared coordinates of x(a, k)·W(k, c), and the
   TensorCore's and the host's inverse square root are one function of the extended reals, so the two regions leave the
   values the reference's host operations compute (Proof/RegionLinear.lean, Proof/RegionInvSqrt.lean,
   Proof/RefValue.lean), and both results are one aggregation of them (Proof/Tail.lean, Proof/KernelValue.lean). No
   finiteness is used: both sides form the same sums of the same products in the same order.
   The idealization rewrote nothing, so `preserves` is `True`. -/
import proofs.«179227_j61830349193418_1_alg».proof.Defs
import proofs.«179227_j61830349193418_1_alg».proof.Proof.Gen.Kernel
import proofs.«179227_j61830349193418_1_alg».proof.Proof.Gen.Kernel.Frame
import proofs.«179227_j61830349193418_1_alg».proof.Proof.Gen.KernelIdeal
import proofs.«179227_j61830349193418_1_alg».proof.Proof.Gen.KernelIdeal.Frame
import proofs.«179227_j61830349193418_1_alg».proof.Proof.Gen.ReferenceIdeal
import proofs.«179227_j61830349193418_1_alg».proof.Proof.Gen.Pre_finite_inputs
import proofs.«179227_j61830349193418_1_alg».proof.Proof.RefRunPatched
import proofs.«179227_j61830349193418_1_alg».proof.Proof.RefValue
import proofs.«179227_j61830349193418_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the graph convolution of the (agreeing) argument arrays: the kernel by its run read back
    through the segments, the reference by its composed term, whose `dot_general` is the same linear transform. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq, Cert.ReferenceIdeal.RefValue.dot_eq_linear,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
